-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 6
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S400x128, .f32⟩
  | .local _ .vmem, ⟨8, _⟩ => ⟨S400x128, .f32⟩
  | .local _ .vmem, ⟨9, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S200x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Bits.Setup.lean ====
/-
  The launch side of the kernel's frame, for any float instance: the contents of the device's arrays when the
  region is entered (the argument arrays as launched, the bias re-laid as one row), each window's block at a grid
  point, that an input window's staging buffer holds exactly that block whenever the body runs, and the one branch
  of the body — taken at the first grid point only, where the product of the features and the weights is formed
  and kept for every later point.
-/
import proofs.«138164_g14276471292070_cont_week2b_185_7_alg».proof.Proof.Gen.Kernel.Launch
import proofs.«138164_g14276471292070_cont_week2b_185_7_alg».proof.Proof.Gen.Kernel.Skeleton
import proofs.«138164_g14276471292070_cont_week2b_185_7_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers at the region's entry: after the one host operation (the bias as a row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the host operation followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! The host operation writes only the row it produces: each argument array is found as launched. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block whenever the body runs, fetched at that point or
    not: a window that is not fetched has not moved. -/

theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The branch on the grid coordinate -/

/-- The body's one condition: the grid coordinate is zero. -/
abbrev atFirst (i : grid0.Coords) : Prop :=
  (Scalar.cmpi .ne (Scalar.extui (Scalar.cmpi .eq (BitVec.ofNat 32 (i 0).val) 0#32)) 0#32) = 1#1

/-- It holds at the first of the 25 points and at no other. -/
theorem atFirst_iff : ∀ t : Fin cfg0.N, atFirst (grid0.coords t) ↔ t.val = 0 :=
  (by decide +kernel : ∀ t : Fin grid0.N, atFirst (grid0.coords t) ↔ t.val = 0)

/-- No window is ever idle. -/
theorem live : ∀ (w : Fin cfg0.W) (t : Fin cfg0.N), cfg0.idle w (grid0.coords t) = false := by decide +kernel

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S200x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x128 .f32 := win0_5.stage (cfg0.slots t 5)
abbrev hs5 (t : Fin cfg0.N) : (ms5 t).IsWhole := hstage0_5 ((cfg0.slots t 5).cast nbuf0_5)
/-- The scratch buffer that keeps the product of the features and the weights between points. -/
abbrev scM : Memref sig .tc .vmem S10000x128 .f32 := Memref.whole cc0_scratch0
/-- One staging buffer of the output window, through which its contents are stated. -/
abbrev VO : View sig .tc .vmem S400x128 .f32 := (Memref.whole cc0_stg5_0 : Memref sig .tc .vmem S400x128 .f32).view
/-- The scratch buffer as a view. -/
abbrev VS : View sig .tc .vmem S10000x128 .f32 := scM.view

/-- The core's scoped buffers that are no staging buffer are the scratch buffer alone. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

end Cert.Kernel.Hand

end
-- ==== Proof.Bits.RunFirst.lean ====
/-
  The body at the first grid point, on any whole memrefs: it forms the product of the features and the weights,
  stores it over the whole scratch buffer, and then stores the two halves of the output block. What each buffer ends
  with is found by running the body; the input buffers are handed back as they were.
-/
import proofs.«138164_g14276471292070_cont_week2b_185_7_alg».proof.Proof.Bits.Setup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the branch is taken: from the five input buffers at their contents and the output and scratch
    buffers at anything, it runs to the inputs unchanged, the output buffer overwritten by the pieces `L5` and the
    scratch buffer by the pieces `LS`. -/
noncomputable def runFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc : atFirst i)
    (x0 : Vec F S10000x128 .f32) (x1 : Vec F S128x128 .f32) (x2 : Vec F S1x128 .f32) (x3 : Vec F S200x10000 .f32) (x4 : Vec F S200x10000 .f32) :
    Σ' (L5 : List (View.Piece (Elt F) S400x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E (cc0__gcn_block i arg1 harg1 arg2 harg2 arg3 harg3 arg4 harg4 arg5 harg5 arg6 harg6 arg7 harg7) K } := by
  refine ⟨?_, ?_, fun E K => ?run⟩
  case run =>
    simp only [cc0__gcn_block_eq_skeleton]; unfold cc0__gcn_block_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact HS

end Cert.Kernel.Hand

end
-- ==== Proof.Bits.RunLater.lean ====
/-
  The body at every later grid point, on any whole memrefs: the branch is not taken, the scratch buffer is only
  read — it still holds the product formed at the first point — and the two halves of the output block are stored.
-/
import proofs.«138164_g14276471292070_cont_week2b_185_7_alg».proof.Proof.Bits.RunFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the branch is not taken: from the five input buffers and the scratch buffer at their contents and
    the output buffer at anything, it runs to those six unchanged and the output buffer overwritten by the pieces `L5`. -/
noncomputable def runLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc : ¬atFirst i)
    (x0 : Vec F S10000x128 .f32) (x1 : Vec F S128x128 .f32) (x2 : Vec F S1x128 .f32) (x3 : Vec F S200x10000 .f32) (x4 : Vec F S200x10000 .f32) (xs : Vec F S10000x128 .f32) :
    { L5 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ owns (c : Thread nD τ) arg7 fullShare xs) -∗ K ⟨⟩))
          ⊢ wp frame (wpE (defs₀ (F := F)) Variants.none c none) E (cc0__gcn_block i arg1 harg1 arg2 harg2 arg3 harg3 arg4 harg4 arg5 harg5 arg6 harg6 arg7 harg7) K } := by
  refine ⟨?_, fun E K => ?run⟩
  case run =>
    simp only [cc0__gcn_block_eq_skeleton]; unfold cc0__gcn_block_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; isplitr; · ipureintro; exact harg7.read_unread _
    iexact HS

end Cert.Kernel.Hand

end
-- ==== Proof.Bits.Data.lean ====
/-
  What the output block and the scratch buffer hold after the body at each grid point, and the proof data of the
  pipeline built from it. The scratch buffer is written once, at the first point, with the product of the features
  and the weights, and holds it unchanged from then on; the output block at a point is the two stored halves. The
  adjacency matrix is handed to two windows, each of which holds half of its share.
-/
import proofs.«138164_g14276471292070_cont_week2b_185_7_alg».proof.Proof.Bits.RunLater

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores leave -/

/-- The two halves stored at the first point tile the output block. -/
theorem coverFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc : atFirst i) (x0 : Vec F S10000x128 .f32) (x1 : Vec F S128x128 .f32) (x2 : Vec F S1x128 .f32) (x3 : Vec F S200x10000 .f32) (x4 : Vec F S200x10000 .f32) (y : S400x128.Idx) :
    ∃ pc ∈ (runFirst c i arg1 harg1 arg2 harg2 arg3 harg3 arg4 harg4 arg5 harg5 arg6 harg6 arg7 harg7 hc x0 x1 x2 x3 x4).1, y ∈ pc.1.set :=
  View.cover_of_tiledL (runFirst c i arg1 harg1 arg2 harg2 arg3 harg3 arg4 harg4 arg5 harg5 arg6 harg6 arg7 harg7 hc x0 x1 x2 x3 x4).1 S200x128.size (by sl_kernel_rfl) y

/-- The output block after the first point: the stored pieces read back. -/
def outFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc : atFirst i) (x0 : Vec F S10000x128 .f32) (x1 : Vec F S128x128 .f32) (x2 : Vec F S1x128 .f32) (x3 : Vec F S200x10000 .f32) (x4 : Vec F S200x10000 .f32) : Vec F S400x128 .f32 :=
  VO.read (Elt F) (VO.writes (Elt F) VO.junk (runFirst c i arg1 harg1 arg2 harg2 arg3 harg3 arg4 harg4 arg5 harg5 arg6 harg6 arg7 harg7 hc x0 x1 x2 x3 x4).1)

/-- The one store into the scratch buffer covers it. -/
theorem coverKept (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc : atFirst i) (x0 : Vec F S10000x128 .f32) (x1 : Vec F S128x128 .f32) (x2 : Vec F S1x128 .f32) (x3 : Vec F S200x10000 .f32) (x4 : Vec F S200x10000 .f32) (y : S10000x128.Idx) :
    ∃ pc ∈ (runFirst c i arg1 harg1 arg2 harg2 arg3 harg3 arg4 harg4 arg5 harg5 arg6 harg6 arg7 harg7 hc x0 x1 x2 x3 x4).2.1, y ∈ pc.1.set :=
  View.cover_of_tiledL (runFirst c i arg1 harg1 arg2 harg2 arg3 harg3 arg4 harg4 arg5 harg5 arg6 harg6 arg7 harg7 hc x0 x1 x2 x3 x4).2.1 S10000x128.size (by sl_kernel_rfl) y

/-- The scratch buffer after the first point: the stored product read back. -/
def keptFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc : atFirst i) (x0 : Vec F S10000x128 .f32) (x1 : Vec F S128x128 .f32) (x2 : Vec F S1x128 .f32) (x3 : Vec F S200x10000 .f32) (x4 : Vec F S200x10000 .f32) : Vec F S10000x128 .f32 :=
  VS.read (Elt F) (VS.writes (Elt F) VS.junk (runFirst c i arg1 harg1 arg2 harg2 arg3 harg3 arg4 harg4 arg5 harg5 arg6 harg6 arg7 harg7 hc x0 x1 x2 x3 x4).2.1)

/-- The two halves stored at a later point tile the output block. -/
theorem coverLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc : ¬atFirst i) (x0 : Vec F S10000x128 .f32) (x1 : Vec F S128x128 .f32) (x2 : Vec F S1x128 .f32) (x3 : Vec F S200x10000 .f32) (x4 : Vec F S200x10000 .f32) (xs : Vec F S10000x128 .f32) (y : S400x128.Idx) :
    ∃ pc ∈ (runLater c i arg1 harg1 arg2 harg2 arg3 harg3 arg4 harg4 arg5 harg5 arg6 harg6 arg7 harg7 hc x0 x1 x2 x3 x4 xs).1, y ∈ pc.1.set :=
  View.cover_of_tiledL (runLater c i arg1 harg1 arg2 harg2 arg3 harg3 arg4 harg4 arg5 harg5 arg6 harg6 arg7 harg7 hc x0 x1 x2 x3 x4 xs).1 S200x128.size (by sl_kernel_rfl) y

/-- The output block after a later point, the scratch buffer holding `xs`. -/
def outLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc : ¬atFirst i) (x0 : Vec F S10000x128 .f32) (x1 : Vec F S128x128 .f32) (x2 : Vec F S1x128 .f32) (x3 : Vec F S200x10000 .f32) (x4 : Vec F S200x10000 .f32) (xs : Vec F S10000x128 .f32) : Vec F S400x128 .f32 :=
  VO.read (Elt F) (VO.writes (Elt F) VO.junk (runLater c i arg1 harg1 arg2 harg2 arg3 harg3 arg4 harg4 arg5 harg5 arg6 harg6 arg7 harg7 hc x0 x1 x2 x3 x4 xs).1)

/-! ## Point by point -/

/-- The first grid point. -/
abbrev t₀ : Fin cfg0.N := ⟨0, by decide⟩

theorem first_t₀ : atFirst (grid0.coords t₀) := (atFirst_iff t₀).mpr rfl

/-- What the scratch buffer holds from the first point on: the product formed there. -/
def kept (c : Dev nD) : Vec F S10000x128 .f32 :=
  keptFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) first_t₀ (iblk m c 0 t₀) (iblk m c 1 t₀) (iblk m c 2 t₀) (iblk m c 3 t₀) (iblk m c 4 t₀)

/-- What the output window's staging buffer holds after the body at point `t`. -/
def outAt (c : Dev nD) (t : Fin cfg0.N) : Vec F S400x128 .f32 :=
  if h : t.val = 0 then outFirst c (grid0.coords t) (ms0 t) (hs0 t) (ms1 t) (hs1 t) (ms2 t) (hs2 t) (ms3 t) (hs3 t) (ms4 t) (hs4 t) (ms5 t) (hs5 t) scM (Memref.isWhole_whole _) ((atFirst_iff t).mpr h) (iblk m c 0 t) (iblk m c 1 t) (iblk m c 2 t) (iblk m c 3 t) (iblk m c 4 t)
  else outLater c (grid0.coords t) (ms0 t) (hs0 t) (ms1 t) (hs1 t) (ms2 t) (hs2 t) (ms3 t) (hs3 t) (ms4 t) (hs4 t) (ms5 t) (hs5 t) scM (Memref.isWhole_whole _) (fun h' => h ((atFirst_iff t).mp h')) (iblk m c 0 t) (iblk m c 1 t) (iblk m c 2 t) (iblk m c 3 t) (iblk m c 4 t) (kept m c)

theorem outAt_first (c : Dev nD) (t : Fin cfg0.N) (h : t.val = 0) :
    outAt m c t = outFirst c (grid0.coords t) (ms0 t) (hs0 t) (ms1 t) (hs1 t) (ms2 t) (hs2 t) (ms3 t) (hs3 t) (ms4 t) (hs4 t) (ms5 t) (hs5 t) scM (Memref.isWhole_whole _) ((atFirst_iff t).mpr h) (iblk m c 0 t) (iblk m c 1 t) (iblk m c 2 t) (iblk m c 3 t) (iblk m c 4 t) := dif_pos h

theorem outAt_later (c : Dev nD) (t : Fin cfg0.N) (h : ¬t.val = 0) :
    outAt m c t = outLater c (grid0.coords t) (ms0 t) (hs0 t) (ms1 t) (hs1 t) (ms2 t) (hs2 t) (ms3 t) (hs3 t) (ms4 t) (hs4 t) (ms5 t) (hs5 t) scM (Memref.isWhole_whole _) (fun h' => h ((atFirst_iff t).mp h')) (iblk m c 0 t) (iblk m c 1 t) (iblk m c 2 t) (iblk m c 3 t) (iblk m c 4 t) (kept m c) := dif_neg h

/-- The region's invariant before position `t`: the scratch buffer at anything before the first point, at the kept
    product afterwards. -/
def PhiS (c : Dev nD) (t : Fin (cfg0.N + 1)) : sProp 𝕄 :=
  if t.val = 0 then iprop(∃ d, owns (c : Thread nD τ) scM fullShare d) else owns (c : Thread nD τ) scM fullShare (kept m c)

theorem PhiS_zero (c : Dev nD) (t : Fin (cfg0.N + 1)) (h : t.val = 0) :
    PhiS m c t = iprop(∃ d, owns (c : Thread nD τ) scM fullShare d) := if_pos h
theorem PhiS_pos (c : Dev nD) (t : Fin (cfg0.N + 1)) (h : ¬t.val = 0) :
    PhiS m c t = owns (c : Thread nD τ) scM fullShare (kept m c) := if_neg h

/-! ## The proof data -/

/-- The pipeline's proof data on core `c`: the arrays as the region finds them; after the body each input's buffer at
    its block and the output's at `outAt`; the invariant `PhiS`; nothing owed; the adjacency matrix's share halved
    between the two windows that read it, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

end Cert.Kernel.Hand

end
-- ==== Proof.Bits.Body.lean ====
/-
  The body obligation of the pipeline: at every grid point, from the invariant and each window's staging buffer at
  what it then holds, the body runs to the invariant at the next point and each buffer at what the proof data say
  it leaves. At the first point the scratch buffer is overwritten with the product and named from then on; at every
  later point it is read and handed back.
-/
import proofs.«138164_g14276471292070_cont_week2b_185_7_alg».proof.Proof.Bits.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; the grid coordinate decides the branch; the run of
    that case applies, the scratch buffer at anything (first point) or at the kept product (later points), and leaves
    it at the kept product. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live 0 t], after0]
  rw [show (dats m 0 c).leavesExact 1 t = owns (c : Thread nD τ) (ms1 t) fullShare ((dats m 0 c).after 1 t) from by
    unfold Dat.leavesExact; rw [live 1 t], after1]
  rw [show (dats m 0 c).leavesExact 2 t = owns (c : Thread nD τ) (ms2 t) fullShare ((dats m 0 c).after 2 t) from by
    unfold Dat.leavesExact; rw [live 2 t], after2]
  rw [show (dats m 0 c).leavesExact 3 t = owns (c : Thread nD τ) (ms3 t) fullShare ((dats m 0 c).after 3 t) from by
    unfold Dat.leavesExact; rw [live 3 t], after3]
  rw [show (dats m 0 c).leavesExact 4 t = owns (c : Thread nD τ) (ms4 t) fullShare ((dats m 0 c).after 4 t) from by
    unfold Dat.leavesExact; rw [live 4 t], after4]
  rw [show (dats m 0 c).leavesExact 5 t = owns (c : Thread nD τ) (ms5 t) fullShare ((dats m 0 c).after 5 t) from by
    unfold Dat.leavesExact; rw [live 5 t], after5]
  rw [show (dats m 0 c).Φ t.castSucc = PhiS m c t.castSucc from rfl, show (dats m 0 c).Φ t.succ = PhiS m c t.succ from rfl]
  rw [PhiS_pos m c t.succ (Nat.succ_ne_zero _)]
  by_cases h0 : t.val = 0
  · rw [PhiS_zero m c t.castSucc h0, outAt_first m c t h0]
    obtain rfl : t = t₀ := Fin.ext h0
    unfold kept outFirst keptFirst
    iintro ⟨HS, Ho, ⟨%d0, H0⟩, ⟨%d1, H1⟩, ⟨%d2, H2⟩, ⟨%d3, H3⟩, ⟨%d4, H4⟩, ⟨%d5, H5⟩⟩
    iapply ((runFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) first_t₀ (iblk m c 0 t₀) (iblk m c 1 t₀) (iblk m c 2 t₀) (iblk m c 3 t₀) (iblk m c 4 t₀)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS]
    · unfold owns; iexists _; isplitr
      swap; · iexact HS
      ipureintro; exact View.read_writes_of_cover _ _ _ _ _ (coverKept c _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst c _ _ _ _ _ _ _ _ _ _ _ _ _ _ _ _ _ _ _ _ _)
  · rw [PhiS_pos m c t.castSucc h0, outAt_later m c t h0]
    unfold outLater
    iintro ⟨HS, Ho, ⟨%d0, H0⟩, ⟨%d1, H1⟩, ⟨%d2, H2⟩, ⟨%d3, H3⟩, ⟨%d4, H4⟩, ⟨%d5, H5⟩⟩
    iapply ((runLater c (grid0.coords t) (ms0 t) (hs0 t) (ms1 t) (hs1 t) (ms2 t) (hs2 t) (ms3 t) (hs3 t) (ms4 t) (hs4 t) (ms5 t) (hs5 t) scM (Memref.isWhole_whole _) (fun h' => h0 ((atFirst_iff t).mp h')) (iblk m c 0 t) (iblk m c 1 t) (iblk m c 2 t) (iblk m c 3 t) (iblk m c 4 t) (kept m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverLater c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.Bits.Run.lean ====
/-
  The launch: the region is entered holding the arrays behind the windows — the adjacency matrix once, its share then
  halved between the two windows that read it — and the run of the whole program follows from the body obligation.
  From the run: every argument array ends as it was launched, and the result array is what the write-backs of the
  output window leave.
-/
import proofs.«138164_g14276471292070_cont_week2b_185_7_alg».proof.Proof.Bits.Body
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' arrays are whole buffers: the pipeline's holdings of them as plain points-tos, each at its share. -/
theorem arrays_eq (c : Dev nD) (Fn : (w : Fin cfg0.W) → Buf (Elt F) ((cfg0.win w).arr.view.loc (c.tc : Thread nD τ))) :
    (dats m 0 c).arrays Fn
      = bigSep Finset.univ fun w => (((c.tc : Thread nD τ).loc (Pipeline.arrRef spec0 w)) ↦{(dats m 0 c).share w} Fn w : sProp 𝕄) := by
  unfold Dat.arrays
  exact bigSep_congr fun w _ => by rw [(arr_whole0 w).set_eq_univ]

theorem share0 (c : Dev nD) : (dats m 0 c).share 0 = fullShare := by unfold Dat.share; dsimp only [dats]; rfl
theorem share1 (c : Dev nD) : (dats m 0 c).share 1 = fullShare := by unfold Dat.share; dsimp only [dats]; rfl
theorem share2 (c : Dev nD) : (dats m 0 c).share 2 = fullShare := by unfold Dat.share; dsimp only [dats]; rfl
theorem share3 (c : Dev nD) : (dats m 0 c).share 3 = fullShare.left := by unfold Dat.share; dsimp only [dats]; rfl
theorem share4 (c : Dev nD) : (dats m 0 c).share 4 = fullShare.right := by unfold Dat.share; dsimp only [dats]; rfl
theorem share5 (c : Dev nD) : (dats m 0 c).share 5 = fullShare := by unfold Dat.share; dsimp only [dats]; rfl

/-- The distinct buffers behind the six windows, each whole, are the six windows' arrays at their shares: the
    adjacency matrix's full share is the left half for one window and the right half for the other. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hl : (Finset.univ.image (Pipeline.arrRef spec0) : Finset (Ref sig .tc))
      = ([main_arg0, main_arg2, main_call0_v0, main_arg1, main_v0] : List (Ref sig .tc)).toFinset := by decide
  rw [arrays_eq, bigSep_W0, share0, share1, share2, share3, share4, share5]
  unfold Pipeline.arrBufs
  rw [bigSep_eq_bigSepL_of_eq _ hl (by decide)]
  refine (show _ ⊢ (iprop((((c.tc : Thread nD τ).loc main_arg0) ↦{fullShare} V m c main_arg0) ∗ (((c.tc : Thread nD τ).loc main_arg2) ↦{fullShare} V m c main_arg2)
      ∗ (((c.tc : Thread nD τ).loc main_call0_v0) ↦{fullShare} V m c main_call0_v0) ∗ (((c.tc : Thread nD τ).loc main_arg1) ↦{fullShare} V m c main_arg1)
      ∗ (((c.tc : Thread nD τ).loc main_v0) ↦{fullShare} V m c main_v0)) : sProp 𝕄) from Entails.of_eq rfl).trans ?_
  refine BIBase.Entails.trans ?_ (show (iprop((((c.tc : Thread nD τ).loc main_arg0) ↦{fullShare} V m c main_arg0) ∗ (((c.tc : Thread nD τ).loc main_arg2) ↦{fullShare} V m c main_arg2)
      ∗ (((c.tc : Thread nD τ).loc main_call0_v0) ↦{fullShare} V m c main_call0_v0) ∗ (((c.tc : Thread nD τ).loc main_arg1) ↦{fullShare.left} V m c main_arg1)
      ∗ (((c.tc : Thread nD τ).loc main_arg1) ↦{fullShare.right} V m c main_arg1)
      ∗ (((c.tc : Thread nD τ).loc main_v0) ↦{fullShare} V m c main_v0)) : sProp 𝕄) ⊢ _ from Entails.of_eq rfl)
  iintro ⟨H0, H2, Hv, H1, H5⟩
  ihave H1' := (pointsTo_share (PosShare.mem_left_op_right fullShare)).1 $$ H1
  icases H1' with ⟨H1l, H1r⟩
  isplitl [H0]; · iexact H0
  isplitl [H2]; · iexact H2
  isplitl [Hv]; · iexact Hv
  isplitl [H1l]; · iexact H1l
  isplitl [H1r]; · iexact H1r
  iexact H5

/-- What the run ends with: each window's array at what the proof data compute, every other unscoped buffer as the
    region found it. -/
def RunPost (r : PUnit × MemSt nD τ sig (Elt F)) : Prop :=
  ∀ c : Dev nD, (∀ w, r.2.mem ((cfg0.spec w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
/-- Every weakly fair execution of the program terminates, without a fault, in a state satisfying `RunPost`. -/
theorem run_main : θ_run defs (onTc (τ := τ) (main (F := F))) (s₀ m ρ) (RunPost m) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr
      · iempintro
      · iexact H)
    (hin := fun c => by
      rw [scoped_eq, show (dats m 0 c).Φ 0 = PhiS m c 0 from rfl, PhiS_zero m c 0 rfl]
      iintro ⟨-, H⟩; iexact H)
    (hout := fun c => by
      rw [scoped_eq, show (dats m 0 c).Φ (Fin.last cfg0.N) = PhiS m c (Fin.last cfg0.N) from rfl,
        PhiS_pos m c (Fin.last cfg0.N) (by decide)]
      iintro H; isplitr
      · iempintro
      · iexists _; iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- THE FRAME: the program runs to the end and every argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).1 3).trans (((dats m 0 c).arrAt_in 3 rfl _).trans ((A_eq m c 3).trans (V_main_arg1 m c))),
     ((h c).1 1).trans (((dats m 0 c).arrAt_in 1 rfl _).trans ((A_eq m c 1).trans (V_main_arg2 m c))),
     ((h c).2 main_arg3 (Pipeline.mem_restRefs_of main_arg3 (by decide) (by decide))).trans (V_main_arg3 m c)⟩) (run_main m ρ)

end Cert.Kernel.Hand

end
-- ==== Proof.Ideal.Setup.lean ====
/-
  The launch side of the kernel's frame, for any float instance: the contents of the device's arrays when the
  region is entered (the argument arrays as launched, the bias re-laid as one row), each window's block at a grid
  point, that an input window's staging buffer holds exactly that block whenever the body runs, and the one branch
  of the body — taken at the first grid point only, where the product of the features and the weights is formed
  and kept for every later point.
-/
import proofs.«138164_g14276471292070_cont_week2b_185_7_alg».proof.Proof.Gen.KernelIdeal.Launch
import proofs.«138164_g14276471292070_cont_week2b_185_7_alg».proof.Proof.Gen.KernelIdeal.Skeleton
import proofs.«138164_g14276471292070_cont_week2b_185_7_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers at the region's entry: after the one host operation (the bias as a row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the host operation followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! The host operation writes only the row it produces: each argument array is found as launched. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block whenever the body runs, fetched at that point or
    not: a window that is not fetched has not moved. -/

theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The branch on the grid coordinate -/

/-- The body's one condition: the grid coordinate is zero. -/
abbrev atFirst (i : grid0.Coords) : Prop :=
  (Scalar.cmpi .ne (Scalar.extui (Scalar.cmpi .eq (BitVec.ofNat 32 (i 0).val) 0#32)) 0#32) = 1#1

/-- It holds at the first of the 25 points and at no other. -/
theorem atFirst_iff : ∀ t : Fin cfg0.N, atFirst (grid0.coords t) ↔ t.val = 0 :=
  (by decide +kernel : ∀ t : Fin grid0.N, atFirst (grid0.coords t) ↔ t.val = 0)

/-- No window is ever idle. -/
theorem live : ∀ (w : Fin cfg0.W) (t : Fin cfg0.N), cfg0.idle w (grid0.coords t) = false := by decide +kernel

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S200x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x128 .f32 := win0_5.stage (cfg0.slots t 5)
abbrev hs5 (t : Fin cfg0.N) : (ms5 t).IsWhole := hstage0_5 ((cfg0.slots t 5).cast nbuf0_5)
/-- The scratch buffer that keeps the product of the features and the weights between points. -/
abbrev scM : Memref sig .tc .vmem S10000x128 .f32 := Memref.whole cc0_scratch0
/-- One staging buffer of the output window, through which its contents are stated. -/
abbrev VO : View sig .tc .vmem S400x128 .f32 := (Memref.whole cc0_stg5_0 : Memref sig .tc .vmem S400x128 .f32).view
/-- The scratch buffer as a view. -/
abbrev VS : View sig .tc .vmem S10000x128 .f32 := scM.view

/-- The core's scoped buffers that are no staging buffer are the scratch buffer alone. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

end Cert.KernelIdeal.Hand

end
-- ==== Proof.Ideal.RunFirst.lean ====
/-
  The body at the first grid point, on any whole memrefs: it forms the product of the features and the weights,
  stores it over the whole scratch buffer, and then stores the two halves of the output block. What each buffer ends
  with is found by running the body; the input buffers are handed back as they were.
-/
import proofs.«138164_g14276471292070_cont_week2b_185_7_alg».proof.Proof.Ideal.Setup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the branch is taken: from the five input buffers at their contents and the output and scratch
    buffers at anything, it runs to the inputs unchanged, the output buffer overwritten by the pieces `L5` and the
    scratch buffer by the pieces `LS`. -/
noncomputable def runFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc : atFirst i)
    (x0 : Vec F S10000x128 .f32) (x1 : Vec F S128x128 .f32) (x2 : Vec F S1x128 .f32) (x3 : Vec F S200x10000 .f32) (x4 : Vec F S200x10000 .f32) :
    Σ' (L5 : List (View.Piece (Elt F) S400x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E (cc0__gcn_block i arg1 harg1 arg2 harg2 arg3 harg3 arg4 harg4 arg5 harg5 arg6 harg6 arg7 harg7) K } := by
  refine ⟨?_, ?_, fun E K => ?run⟩
  case run =>
    simp only [cc0__gcn_block_eq_skeleton]; unfold cc0__gcn_block_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact HS

end Cert.KernelIdeal.Hand

end
-- ==== Proof.Ideal.RunLater.lean ====
/-
  The body at every later grid point, on any whole memrefs: the branch is not taken, the scratch buffer is only
  read — it still holds the product formed at the first point — and the two halves of the output block are stored.
-/
import proofs.«138164_g14276471292070_cont_week2b_185_7_alg».proof.Proof.Ideal.RunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the branch is not taken: from the five input buffers and the scratch buffer at their contents and
    the output buffer at anything, it runs to those six unchanged and the output buffer overwritten by the pieces `L5`. -/
noncomputable def runLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc : ¬atFirst i)
    (x0 : Vec F S10000x128 .f32) (x1 : Vec F S128x128 .f32) (x2 : Vec F S1x128 .f32) (x3 : Vec F S200x10000 .f32) (x4 : Vec F S200x10000 .f32) (xs : Vec F S10000x128 .f32) :
    { L5 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ owns (c : Thread nD τ) arg7 fullShare xs) -∗ K ⟨⟩))
          ⊢ wp frame (wpE (defs₀ (F := F)) Variants.none c none) E (cc0__gcn_block i arg1 harg1 arg2 harg2 arg3 harg3 arg4 harg4 arg5 harg5 arg6 harg6 arg7 harg7) K } := by
  refine ⟨?_, fun E K => ?run⟩
  case run =>
    simp only [cc0__gcn_block_eq_skeleton]; unfold cc0__gcn_block_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; isplitr; · ipureintro; exact harg7.read_unread _
    iexact HS

end Cert.KernelIdeal.Hand

end
-- ==== Proof.Ideal.Data.lean ====
/-
  What the output block and the scratch buffer hold after the body at each grid point, and the proof data of the
  pipeline built from it. The scratch buffer is written once, at the first point, with the product of the features
  and the weights, and holds it unchanged from then on; the output block at a point is the two stored halves. The
  adjacency matrix is handed to two windows, each of which holds half of its share.
-/
import proofs.«138164_g14276471292070_cont_week2b_185_7_alg».proof.Proof.Ideal.RunLater

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores leave -/

/-- The two halves stored at the first point tile the output block. -/
theorem coverFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc : atFirst i) (x0 : Vec F S10000x128 .f32) (x1 : Vec F S128x128 .f32) (x2 : Vec F S1x128 .f32) (x3 : Vec F S200x10000 .f32) (x4 : Vec F S200x10000 .f32) (y : S400x128.Idx) :
    ∃ pc ∈ (runFirst c i arg1 harg1 arg2 harg2 arg3 harg3 arg4 harg4 arg5 harg5 arg6 harg6 arg7 harg7 hc x0 x1 x2 x3 x4).1, y ∈ pc.1.set :=
  View.cover_of_tiledL (runFirst c i arg1 harg1 arg2 harg2 arg3 harg3 arg4 harg4 arg5 harg5 arg6 harg6 arg7 harg7 hc x0 x1 x2 x3 x4).1 S200x128.size (by sl_kernel_rfl) y

/-- The output block after the first point: the stored pieces read back. -/
def outFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc : atFirst i) (x0 : Vec F S10000x128 .f32) (x1 : Vec F S128x128 .f32) (x2 : Vec F S1x128 .f32) (x3 : Vec F S200x10000 .f32) (x4 : Vec F S200x10000 .f32) : Vec F S400x128 .f32 :=
  VO.read (Elt F) (VO.writes (Elt F) VO.junk (runFirst c i arg1 harg1 arg2 harg2 arg3 harg3 arg4 harg4 arg5 harg5 arg6 harg6 arg7 harg7 hc x0 x1 x2 x3 x4).1)

/-- The one store into the scratch buffer covers it. -/
theorem coverKept (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc : atFirst i) (x0 : Vec F S10000x128 .f32) (x1 : Vec F S128x128 .f32) (x2 : Vec F S1x128 .f32) (x3 : Vec F S200x10000 .f32) (x4 : Vec F S200x10000 .f32) (y : S10000x128.Idx) :
    ∃ pc ∈ (runFirst c i arg1 harg1 arg2 harg2 arg3 harg3 arg4 harg4 arg5 harg5 arg6 harg6 arg7 harg7 hc x0 x1 x2 x3 x4).2.1, y ∈ pc.1.set :=
  View.cover_of_tiledL (runFirst c i arg1 harg1 arg2 harg2 arg3 harg3 arg4 harg4 arg5 harg5 arg6 harg6 arg7 harg7 hc x0 x1 x2 x3 x4).2.1 S10000x128.size (by sl_kernel_rfl) y

/-- The scratch buffer after the first point: the stored product read back. -/
def keptFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc : atFirst i) (x0 : Vec F S10000x128 .f32) (x1 : Vec F S128x128 .f32) (x2 : Vec F S1x128 .f32) (x3 : Vec F S200x10000 .f32) (x4 : Vec F S200x10000 .f32) : Vec F S10000x128 .f32 :=
  VS.read (Elt F) (VS.writes (Elt F) VS.junk (runFirst c i arg1 harg1 arg2 harg2 arg3 harg3 arg4 harg4 arg5 harg5 arg6 harg6 arg7 harg7 hc x0 x1 x2 x3 x4).2.1)

/-- The two halves stored at a later point tile the output block. -/
theorem coverLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc : ¬atFirst i) (x0 : Vec F S10000x128 .f32) (x1 : Vec F S128x128 .f32) (x2 : Vec F S1x128 .f32) (x3 : Vec F S200x10000 .f32) (x4 : Vec F S200x10000 .f32) (xs : Vec F S10000x128 .f32) (y : S400x128.Idx) :
    ∃ pc ∈ (runLater c i arg1 harg1 arg2 harg2 arg3 harg3 arg4 harg4 arg5 harg5 arg6 harg6 arg7 harg7 hc x0 x1 x2 x3 x4 xs).1, y ∈ pc.1.set :=
  View.cover_of_tiledL (runLater c i arg1 harg1 arg2 harg2 arg3 harg3 arg4 harg4 arg5 harg5 arg6 harg6 arg7 harg7 hc x0 x1 x2 x3 x4 xs).1 S200x128.size (by sl_kernel_rfl) y

/-- The output block after a later point, the scratch buffer holding `xs`. -/
def outLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc : ¬atFirst i) (x0 : Vec F S10000x128 .f32) (x1 : Vec F S128x128 .f32) (x2 : Vec F S1x128 .f32) (x3 : Vec F S200x10000 .f32) (x4 : Vec F S200x10000 .f32) (xs : Vec F S10000x128 .f32) : Vec F S400x128 .f32 :=
  VO.read (Elt F) (VO.writes (Elt F) VO.junk (runLater c i arg1 harg1 arg2 harg2 arg3 harg3 arg4 harg4 arg5 harg5 arg6 harg6 arg7 harg7 hc x0 x1 x2 x3 x4 xs).1)

/-! ## Point by point -/

/-- The first grid point. -/
abbrev t₀ : Fin cfg0.N := ⟨0, by decide⟩

theorem first_t₀ : atFirst (grid0.coords t₀) := (atFirst_iff t₀).mpr rfl

/-- What the scratch buffer holds from the first point on: the product formed there. -/
def kept (c : Dev nD) : Vec F S10000x128 .f32 :=
  keptFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) first_t₀ (iblk m c 0 t₀) (iblk m c 1 t₀) (iblk m c 2 t₀) (iblk m c 3 t₀) (iblk m c 4 t₀)

/-- What the output window's staging buffer holds after the body at point `t`. -/
def outAt (c : Dev nD) (t : Fin cfg0.N) : Vec F S400x128 .f32 :=
  if h : t.val = 0 then outFirst c (grid0.coords t) (ms0 t) (hs0 t) (ms1 t) (hs1 t) (ms2 t) (hs2 t) (ms3 t) (hs3 t) (ms4 t) (hs4 t) (ms5 t) (hs5 t) scM (Memref.isWhole_whole _) ((atFirst_iff t).mpr h) (iblk m c 0 t) (iblk m c 1 t) (iblk m c 2 t) (iblk m c 3 t) (iblk m c 4 t)
  else outLater c (grid0.coords t) (ms0 t) (hs0 t) (ms1 t) (hs1 t) (ms2 t) (hs2 t) (ms3 t) (hs3 t) (ms4 t) (hs4 t) (ms5 t) (hs5 t) scM (Memref.isWhole_whole _) (fun h' => h ((atFirst_iff t).mp h')) (iblk m c 0 t) (iblk m c 1 t) (iblk m c 2 t) (iblk m c 3 t) (iblk m c 4 t) (kept m c)

theorem outAt_first (c : Dev nD) (t : Fin cfg0.N) (h : t.val = 0) :
    outAt m c t = outFirst c (grid0.coords t) (ms0 t) (hs0 t) (ms1 t) (hs1 t) (ms2 t) (hs2 t) (ms3 t) (hs3 t) (ms4 t) (hs4 t) (ms5 t) (hs5 t) scM (Memref.isWhole_whole _) ((atFirst_iff t).mpr h) (iblk m c 0 t) (iblk m c 1 t) (iblk m c 2 t) (iblk m c 3 t) (iblk m c 4 t) := dif_pos h

theorem outAt_later (c : Dev nD) (t : Fin cfg0.N) (h : ¬t.val = 0) :
    outAt m c t = outLater c (grid0.coords t) (ms0 t) (hs0 t) (ms1 t) (hs1 t) (ms2 t) (hs2 t) (ms3 t) (hs3 t) (ms4 t) (hs4 t) (ms5 t) (hs5 t) scM (Memref.isWhole_whole _) (fun h' => h ((atFirst_iff t).mp h')) (iblk m c 0 t) (iblk m c 1 t) (iblk m c 2 t) (iblk m c 3 t) (iblk m c 4 t) (kept m c) := dif_neg h

/-- The region's invariant before position `t`: the scratch buffer at anything before the first point, at the kept
    product afterwards. -/
def PhiS (c : Dev nD) (t : Fin (cfg0.N + 1)) : sProp 𝕄 :=
  if t.val = 0 then iprop(∃ d, owns (c : Thread nD τ) scM fullShare d) else owns (c : Thread nD τ) scM fullShare (kept m c)

theorem PhiS_zero (c : Dev nD) (t : Fin (cfg0.N + 1)) (h : t.val = 0) :
    PhiS m c t = iprop(∃ d, owns (c : Thread nD τ) scM fullShare d) := if_pos h
theorem PhiS_pos (c : Dev nD) (t : Fin (cfg0.N + 1)) (h : ¬t.val = 0) :
    PhiS m c t = owns (c : Thread nD τ) scM fullShare (kept m c) := if_neg h

/-! ## The proof data -/

/-- The pipeline's proof data on core `c`: the arrays as the region finds them; after the body each input's buffer at
    its block and the output's at `outAt`; the invariant `PhiS`; nothing owed; the adjacency matrix's share halved
    between the two windows that read it, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

end Cert.KernelIdeal.Hand

end
-- ==== Proof.Ideal.Body.lean ====
/-
  The body obligation of the pipeline: at every grid point, from the invariant and each window's staging buffer at
  what it then holds, the body runs to the invariant at the next point and each buffer at what the proof data say
  it leaves. At the first point the scratch buffer is overwritten with the product and named from then on; at every
  later point it is read and handed back.
-/
import proofs.«138164_g14276471292070_cont_week2b_185_7_alg».proof.Proof.Ideal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; the grid coordinate decides the branch; the run of
    that case applies, the scratch buffer at anything (first point) or at the kept product (later points), and leaves
    it at the kept product. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live 0 t], after0]
  rw [show (dats m 0 c).leavesExact 1 t = owns (c : Thread nD τ) (ms1 t) fullShare ((dats m 0 c).after 1 t) from by
    unfold Dat.leavesExact; rw [live 1 t], after1]
  rw [show (dats m 0 c).leavesExact 2 t = owns (c : Thread nD τ) (ms2 t) fullShare ((dats m 0 c).after 2 t) from by
    unfold Dat.leavesExact; rw [live 2 t], after2]
  rw [show (dats m 0 c).leavesExact 3 t = owns (c : Thread nD τ) (ms3 t) fullShare ((dats m 0 c).after 3 t) from by
    unfold Dat.leavesExact; rw [live 3 t], after3]
  rw [show (dats m 0 c).leavesExact 4 t = owns (c : Thread nD τ) (ms4 t) fullShare ((dats m 0 c).after 4 t) from by
    unfold Dat.leavesExact; rw [live 4 t], after4]
  rw [show (dats m 0 c).leavesExact 5 t = owns (c : Thread nD τ) (ms5 t) fullShare ((dats m 0 c).after 5 t) from by
    unfold Dat.leavesExact; rw [live 5 t], after5]
  rw [show (dats m 0 c).Φ t.castSucc = PhiS m c t.castSucc from rfl, show (dats m 0 c).Φ t.succ = PhiS m c t.succ from rfl]
  rw [PhiS_pos m c t.succ (Nat.succ_ne_zero _)]
  by_cases h0 : t.val = 0
  · rw [PhiS_zero m c t.castSucc h0, outAt_first m c t h0]
    obtain rfl : t = t₀ := Fin.ext h0
    unfold kept outFirst keptFirst
    iintro ⟨HS, Ho, ⟨%d0, H0⟩, ⟨%d1, H1⟩, ⟨%d2, H2⟩, ⟨%d3, H3⟩, ⟨%d4, H4⟩, ⟨%d5, H5⟩⟩
    iapply ((runFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) first_t₀ (iblk m c 0 t₀) (iblk m c 1 t₀) (iblk m c 2 t₀) (iblk m c 3 t₀) (iblk m c 4 t₀)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS]
    · unfold owns; iexists _; isplitr
      swap; · iexact HS
      ipureintro; exact View.read_writes_of_cover _ _ _ _ _ (coverKept c _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst c _ _ _ _ _ _ _ _ _ _ _ _ _ _ _ _ _ _ _ _ _)
  · rw [PhiS_pos m c t.castSucc h0, outAt_later m c t h0]
    unfold outLater
    iintro ⟨HS, Ho, ⟨%d0, H0⟩, ⟨%d1, H1⟩, ⟨%d2, H2⟩, ⟨%d3, H3⟩, ⟨%d4, H4⟩, ⟨%d5, H5⟩⟩
    iapply ((runLater c (grid0.coords t) (ms0 t) (hs0 t) (ms1 t) (hs1 t) (ms2 t) (hs2 t) (ms3 t) (hs3 t) (ms4 t) (hs4 t) (ms5 t) (hs5 t) scM (Memref.isWhole_whole _) (fun h' => h0 ((atFirst_iff t).mp h')) (iblk m c 0 t) (iblk m c 1 t) (iblk m c 2 t) (iblk m c 3 t) (iblk m c 4 t) (kept m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverLater c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Ideal.Run.lean ====
/-
  The launch: the region is entered holding the arrays behind the windows — the adjacency matrix once, its share then
  halved between the two windows that read it — and the run of the whole program follows from the body obligation.
  From the run: every argument array ends as it was launched, and the result array is what the write-backs of the
  output window leave.
-/
import proofs.«138164_g14276471292070_cont_week2b_185_7_alg».proof.Proof.Ideal.Body
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' arrays are whole buffers: the pipeline's holdings of them as plain points-tos, each at its share. -/
theorem arrays_eq (c : Dev nD) (Fn : (w : Fin cfg0.W) → Buf (Elt F) ((cfg0.win w).arr.view.loc (c.tc : Thread nD τ))) :
    (dats m 0 c).arrays Fn
      = bigSep Finset.univ fun w => (((c.tc : Thread nD τ).loc (Pipeline.arrRef spec0 w)) ↦{(dats m 0 c).share w} Fn w : sProp 𝕄) := by
  unfold Dat.arrays
  exact bigSep_congr fun w _ => by rw [(arr_whole0 w).set_eq_univ]

theorem share0 (c : Dev nD) : (dats m 0 c).share 0 = fullShare := by unfold Dat.share; dsimp only [dats]; rfl
theorem share1 (c : Dev nD) : (dats m 0 c).share 1 = fullShare := by unfold Dat.share; dsimp only [dats]; rfl
theorem share2 (c : Dev nD) : (dats m 0 c).share 2 = fullShare := by unfold Dat.share; dsimp only [dats]; rfl
theorem share3 (c : Dev nD) : (dats m 0 c).share 3 = fullShare.left := by unfold Dat.share; dsimp only [dats]; rfl
theorem share4 (c : Dev nD) : (dats m 0 c).share 4 = fullShare.right := by unfold Dat.share; dsimp only [dats]; rfl
theorem share5 (c : Dev nD) : (dats m 0 c).share 5 = fullShare := by unfold Dat.share; dsimp only [dats]; rfl

/-- The distinct buffers behind the six windows, each whole, are the six windows' arrays at their shares: the
    adjacency matrix's full share is the left half for one window and the right half for the other. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hl : (Finset.univ.image (Pipeline.arrRef spec0) : Finset (Ref sig .tc))
      = ([main_arg0, main_arg2, main_call0_v0, main_arg1, main_v0] : List (Ref sig .tc)).toFinset := by decide
  rw [arrays_eq, bigSep_W0, share0, share1, share2, share3, share4, share5]
  unfold Pipeline.arrBufs
  rw [bigSep_eq_bigSepL_of_eq _ hl (by decide)]
  refine (show _ ⊢ (iprop((((c.tc : Thread nD τ).loc main_arg0) ↦{fullShare} V m c main_arg0) ∗ (((c.tc : Thread nD τ).loc main_arg2) ↦{fullShare} V m c main_arg2)
      ∗ (((c.tc : Thread nD τ).loc main_call0_v0) ↦{fullShare} V m c main_call0_v0) ∗ (((c.tc : Thread nD τ).loc main_arg1) ↦{fullShare} V m c main_arg1)
      ∗ (((c.tc : Thread nD τ).loc main_v0) ↦{fullShare} V m c main_v0)) : sProp 𝕄) from Entails.of_eq rfl).trans ?_
  refine BIBase.Entails.trans ?_ (show (iprop((((c.tc : Thread nD τ).loc main_arg0) ↦{fullShare} V m c main_arg0) ∗ (((c.tc : Thread nD τ).loc main_arg2) ↦{fullShare} V m c main_arg2)
      ∗ (((c.tc : Thread nD τ).loc main_call0_v0) ↦{fullShare} V m c main_call0_v0) ∗ (((c.tc : Thread nD τ).loc main_arg1) ↦{fullShare.left} V m c main_arg1)
      ∗ (((c.tc : Thread nD τ).loc main_arg1) ↦{fullShare.right} V m c main_arg1)
      ∗ (((c.tc : Thread nD τ).loc main_v0) ↦{fullShare} V m c main_v0)) : sProp 𝕄) ⊢ _ from Entails.of_eq rfl)
  iintro ⟨H0, H2, Hv, H1, H5⟩
  ihave H1' := (pointsTo_share (PosShare.mem_left_op_right fullShare)).1 $$ H1
  icases H1' with ⟨H1l, H1r⟩
  isplitl [H0]; · iexact H0
  isplitl [H2]; · iexact H2
  isplitl [Hv]; · iexact Hv
  isplitl [H1l]; · iexact H1l
  isplitl [H1r]; · iexact H1r
  iexact H5

/-- What the run ends with: each window's array at what the proof data compute, every other unscoped buffer as the
    region found it. -/
def RunPost (r : PUnit × MemSt nD τ sig (Elt F)) : Prop :=
  ∀ c : Dev nD, (∀ w, r.2.mem ((cfg0.spec w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
/-- Every weakly fair execution of the program terminates, without a fault, in a state satisfying `RunPost`. -/
theorem run_main : θ_run defs (onTc (τ := τ) (main (F := F))) (s₀ m ρ) (RunPost m) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr
      · iempintro
      · iexact H)
    (hin := fun c => by
      rw [scoped_eq, show (dats m 0 c).Φ 0 = PhiS m c 0 from rfl, PhiS_zero m c 0 rfl]
      iintro ⟨-, H⟩; iexact H)
    (hout := fun c => by
      rw [scoped_eq, show (dats m 0 c).Φ (Fin.last cfg0.N) = PhiS m c (Fin.last cfg0.N) from rfl,
        PhiS_pos m c (Fin.last cfg0.N) (by decide)]
      iintro H; isplitr
      · iempintro
      · iexists _; iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- THE FRAME: the program runs to the end and every argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).1 3).trans (((dats m 0 c).arrAt_in 3 rfl _).trans ((A_eq m c 3).trans (V_main_arg1 m c))),
     ((h c).1 1).trans (((dats m 0 c).arrAt_in 1 rfl _).trans ((A_eq m c 1).trans (V_main_arg2 m c))),
     ((h c).2 main_arg3 (Pipeline.mem_restRefs_of main_arg3 (by decide) (by decide))).trans (V_main_arg3 m c)⟩) (run_main m ρ)

end Cert.KernelIdeal.Hand

end
-- ==== Proof.Ideal.Pieces.lean ====
/-
  What the runs found, in closed form. The scratch buffer after the first point is the product of the features and
  the weights; the output block after any point is two stored halves: rows 0–199 the first stream's rows of the
  adjacency matrix against that product, plus the bias, clamped below at zero, and rows 200–399 the second stream's.
-/
import proofs.«138164_g14276471292070_cont_week2b_185_7_alg».proof.Proof.Ideal.Data
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeros : (![0, 0] : Fin 2 → Nat) = fun _ => 0 := funext fun a => by fin_cases a <;> rfl

/-- The two halves of the output block, as pieces: rows 200–399 stored last. -/
abbrev halves (lo hi : FVec F S200x128 .f32) : List (View.Piece (Elt F) S400x128 .f32) :=
  [⟨Rect.unit (s := S400x128) ![200, 0] S200x128.size inb_S400x128_S200x128_200_0, hi⟩,
   ⟨Rect.unit (s := S400x128) ![0, 0] S200x128.size inb_S400x128_S200x128_0_0, lo⟩]

/-- The scratch buffer after the first point holds the product of the features and the weights. -/
theorem keptFirst_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc : atFirst i) (x0 : Vec F S10000x128 .f32) (x1 : Vec F S128x128 .f32) (x2 : Vec F S1x128 .f32) (x3 : Vec F S200x10000 .f32) (x4 : Vec F S200x10000 .f32) :
    keptFirst c i arg1 harg1 arg2 harg2 arg3 harg3 arg4 harg4 arg5 harg5 arg6 harg6 arg7 harg7 hc x0 x1 x2 x3 x4 = k0_pay1 x0 x1 := by
  unfold keptFirst
  rw [View.read_writes_junk_eq_canon]
  unfold runFirst
  dsimp only
  sl_unfold_words
  rw [View.canon_unit_zero zeros]
  simp only [View.readAt_eq_ld, harg1.read_unread, harg2.read_unread, harg3.read_unread, harg4.read_unread, harg5.read_unread, harg7.read_unread,
    View.ld_unit_zero (S := S10000x128) zeros, View.ld_unit_zero (S := S128x128) zeros, View.ld_unit_zero (S := S1x128) zeros,
    View.ld_unit_zero (S := S200x10000) zeros, View.readCov_unit_zero (S := S10000x128) _ zeros]

/-- The output block after the first point. -/
theorem outFirst_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc : atFirst i) (x0 : Vec F S10000x128 .f32) (x1 : Vec F S128x128 .f32) (x2 : Vec F S1x128 .f32) (x3 : Vec F S200x10000 .f32) (x4 : Vec F S200x10000 .f32) :
    outFirst c i arg1 harg1 arg2 harg2 arg3 harg3 arg4 harg4 arg5 harg5 arg6 harg6 arg7 harg7 hc x0 x1 x2 x3 x4 = View.canon (halves (k0_pay2 x3 (k0_pay1 x0 x1) x2) (k0_pay3 x4 (k0_pay1 x0 x1) x2)) := by
  unfold outFirst
  rw [View.read_writes_junk_eq_canon]
  unfold runFirst
  dsimp only
  sl_unfold_words
  simp only [View.readAt_eq_ld, harg1.read_unread, harg2.read_unread, harg3.read_unread, harg4.read_unread, harg5.read_unread, harg7.read_unread,
    View.ld_unit_zero (S := S10000x128) zeros, View.ld_unit_zero (S := S128x128) zeros, View.ld_unit_zero (S := S1x128) zeros,
    View.ld_unit_zero (S := S200x10000) zeros, View.readCov_unit_zero (S := S10000x128) _ zeros]

/-- The output block after a later point, the scratch buffer holding `xs`. -/
theorem outLater_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc : ¬atFirst i) (x0 : Vec F S10000x128 .f32) (x1 : Vec F S128x128 .f32) (x2 : Vec F S1x128 .f32) (x3 : Vec F S200x10000 .f32) (x4 : Vec F S200x10000 .f32) (xs : Vec F S10000x128 .f32) :
    outLater c i arg1 harg1 arg2 harg2 arg3 harg3 arg4 harg4 arg5 harg5 arg6 harg6 arg7 harg7 hc x0 x1 x2 x3 x4 xs = View.canon (halves (k0_pay2 x3 xs x2) (k0_pay3 x4 xs x2)) := by
  unfold outLater
  rw [View.read_writes_junk_eq_canon]
  unfold runLater
  dsimp only
  sl_unfold_words
  simp only [View.readAt_eq_ld, harg1.read_unread, harg2.read_unread, harg3.read_unread, harg4.read_unread, harg5.read_unread, harg7.read_unread,
    View.ld_unit_zero (S := S10000x128) zeros, View.ld_unit_zero (S := S128x128) zeros, View.ld_unit_zero (S := S1x128) zeros,
    View.ld_unit_zero (S := S200x10000) zeros, View.readCov_unit_zero (S := S10000x128) _ zeros]

/-- Reading the two halves at an index of the block: below row 200 the first half, from row 200 the second. -/
theorem halves_apply (lo hi : FVec F S200x128 .f32) (p : Fin 400) (q : Fin 128) :
    View.canon (halves lo hi) (ValueIdx.ix2 p q)
      = if h : p.val < 200 then lo (ValueIdx.ix2 ⟨p.val, h⟩ q) else hi (ValueIdx.ix2 ⟨p.val - 200, by omega⟩ q) := by
  by_cases h : p.val < 200
  · rw [dif_pos h]
    have hn : (ValueIdx.ix2 p q : S400x128.Idx) ∉ (Rect.unit (s := S400x128) ![200, 0] S200x128.size inb_S400x128_S200x128_200_0).set := by
      intro hm
      have h0 := (Rect.mem_set_unit.mp hm (0 : Fin 2)).1
      have e : (200 : Nat) ≤ p.val := h0
      omega
    have he : (ValueIdx.ix2 p q : S400x128.Idx)
        = (Rect.unit (s := S400x128) ![0, 0] S200x128.size inb_S400x128_S200x128_0_0).emb (ValueIdx.ix2 ⟨p.val, h⟩ q) := by
      funext a; apply Fin.ext
      match a with
      | ⟨0, _⟩ => show p.val = 0 + 1 * p.val; omega
      | ⟨1, _⟩ => show q.val = 0 + 1 * q.val; omega
    refine (View.canon_cons_of_not_mem (Val := Elt F)
      (⟨Rect.unit (s := S400x128) ![200, 0] S200x128.size inb_S400x128_S200x128_200_0, hi⟩ : View.Piece (Elt F) S400x128 .f32)
      [(⟨Rect.unit (s := S400x128) ![0, 0] S200x128.size inb_S400x128_S200x128_0_0, lo⟩ : View.Piece (Elt F) S400x128 .f32)] hn).trans ?_
    refine (congrArg (View.canon (Val := Elt F) [(⟨Rect.unit (s := S400x128) ![0, 0] S200x128.size inb_S400x128_S200x128_0_0, lo⟩ : View.Piece (Elt F) S400x128 .f32)]) he).trans ?_
    exact View.canon_cons_emb (Val := Elt F) (e := .f32) (Rect.unit (s := S400x128) ![0, 0] S200x128.size inb_S400x128_S200x128_0_0) lo [] (ValueIdx.ix2 ⟨p.val, h⟩ q)
  · rw [dif_neg h]
    have he : (ValueIdx.ix2 p q : S400x128.Idx)
        = (Rect.unit (s := S400x128) ![200, 0] S200x128.size inb_S400x128_S200x128_200_0).emb (ValueIdx.ix2 ⟨p.val - 200, by omega⟩ q) := by
      funext a; apply Fin.ext
      match a with
      | ⟨0, _⟩ => show p.val = 200 + 1 * (p.val - 200); omega
      | ⟨1, _⟩ => show q.val = 0 + 1 * q.val; omega
    refine (congrArg (View.canon (Val := Elt F) (halves lo hi)) he).trans ?_
    exact View.canon_cons_emb (Val := Elt F) (e := .f32) (Rect.unit (s := S400x128) ![200, 0] S200x128.size inb_S400x128_S200x128_200_0) hi
      [(⟨Rect.unit (s := S400x128) ![0, 0] S200x128.size inb_S400x128_S200x128_0_0, lo⟩ : View.Piece (Elt F) S400x128 .f32)] (ValueIdx.ix2 ⟨p.val - 200, by omega⟩ q)

end Cert.KernelIdeal.Hand

end
-- ==== Proof.GraphLayer.lean ====
/-
  The graph-convolution layer as one function on the extended reals, entry by entry: the features times the weights
  (`support`), the adjacency matrix times that, plus the bias, clamped below at the float zero. Both programs compute
  this function of the four argument arrays; no law of arithmetic is needed to join them, only a re-indexing of the sums.
-/
import Idealize.ShloMosaic.PureOps.Ideal
import Idealize.ShloMosaic.Lib.ValueIdx

noncomputable section

open scoped BigOperators

namespace Cert.GraphLayer

open Idealize.ShloMosaic Idealize.ShloMosaic.ValueIdx

/-- Row `k`, column `q` of the features times the weights. -/
def support (x : (⟨2, ![10000, 128]⟩ : Shape).Idx → EReal) (w : (⟨2, ![128, 128]⟩ : Shape).Idx → EReal)
    (k : Fin 10000) (q : Fin 128) : EReal :=
  ∑ j : Fin 128, x (ix2 k j) * w (ix2 j q)

/-- One row of the adjacency matrix against a 10000 × 128 array, plus the bias, clamped below at zero. -/
def rowAgainst (row : Fin 10000 → EReal) (s : Fin 10000 → EReal) (bias : EReal) : EReal :=
  max ((∑ k : Fin 10000, row k * s k) + bias) (Ideal.ofBits .f32 0x00000000#32)

/-- Entry `(p, q)` of the layer's result. -/
def layerAt (x : (⟨2, ![10000, 128]⟩ : Shape).Idx → EReal) (adj : (⟨2, ![10000, 10000]⟩ : Shape).Idx → EReal)
    (w : (⟨2, ![128, 128]⟩ : Shape).Idx → EReal) (b : (⟨1, ![128]⟩ : Shape).Idx → EReal) (p : Fin 10000) (q : Fin 128) : EReal :=
  rowAgainst (fun k => adj (ix2 p k)) (fun k => support x w k q) (b (ix1 q))

/-- The layer's result as an array. -/
def layer (x : (⟨2, ![10000, 128]⟩ : Shape).Idx → EReal) (adj : (⟨2, ![10000, 10000]⟩ : Shape).Idx → EReal)
    (w : (⟨2, ![128, 128]⟩ : Shape).Idx → EReal) (b : (⟨1, ![128]⟩ : Shape).Idx → EReal) :
    (⟨2, ![10000, 128]⟩ : Shape).Idx → EReal :=
  fun i => layerAt x adj w b ⟨(i 0).val, idx2_lt0 i⟩ ⟨(i 1).val, idx2_lt1 i⟩

theorem layer_ix2 (x : (⟨2, ![10000, 128]⟩ : Shape).Idx → EReal) (adj : (⟨2, ![10000, 10000]⟩ : Shape).Idx → EReal)
    (w : (⟨2, ![128, 128]⟩ : Shape).Idx → EReal) (b : (⟨1, ![128]⟩ : Shape).Idx → EReal) (p : Fin 10000) (q : Fin 128) :
    layer x adj w b (ix2 p q) = layerAt x adj w b p q := rfl

end Cert.GraphLayer

end
-- ==== Proof.Ideal.Payloads.lean ====
/-
  The body's three stored values at the ideal instance, read at an index: the product of the features and the weights is
  the sum over the shared axis; each stored half of the output block is a row of adjacency entries against a 10000 × 128
  array, plus the bias row, clamped below at zero. A matrix product into a zero accumulator is the plain sum.
-/
import proofs.«138164_g14276471292070_cont_week2b_185_7_alg».proof.Proof.Gen.KernelIdeal.Skeleton
import proofs.«138164_g14276471292070_cont_week2b_185_7_alg».proof.Proof.GraphLayer
import Idealize.ShloMosaic.Lib.Pipeline.Value
import Idealize.ShloMosaic.Lib.ValueIdx
import Idealize.ShloMosaic.PureOps.Ideal.Laws

noncomputable section

open scoped BigOperators

namespace Cert.KernelIdeal.Hand

open Idealize.ShloMosaic Idealize.ShloMosaic.ValueIdx Cert.KernelIdeal Cert.KernelIdeal.Gen Cert.GraphLayer

/-! ## The two products' operand indices, coordinate by coordinate -/

theorem xw_lhs0 (i : S10000x128.Idx) (r : dot_S10000x128_S128x128_S10000x128_1_0_0_1_n_n.contr.Idx) : (dot_S10000x128_S128x128_S10000x128_1_0_0_1_n_n.lhsIdx i r 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem xw_lhs1 (i : S10000x128.Idx) (r : dot_S10000x128_S128x128_S10000x128_1_0_0_1_n_n.contr.Idx) : (dot_S10000x128_S128x128_S10000x128_1_0_0_1_n_n.lhsIdx i r 1).val = (r ⟨0, by decide⟩).val :=
  dot_S10000x128_S128x128_S10000x128_1_0_0_1_n_n.lhsIdx_val_of_single rfl i r
theorem xw_rhs0 (i : S10000x128.Idx) (r : dot_S10000x128_S128x128_S10000x128_1_0_0_1_n_n.contr.Idx) : (dot_S10000x128_S128x128_S10000x128_1_0_0_1_n_n.rhsIdx i r 0).val = (r ⟨0, by decide⟩).val :=
  dot_S10000x128_S128x128_S10000x128_1_0_0_1_n_n.rhsIdx_val_of_single rfl i r
theorem xw_rhs1 (i : S10000x128.Idx) (r : dot_S10000x128_S128x128_S10000x128_1_0_0_1_n_n.contr.Idx) : (dot_S10000x128_S128x128_S10000x128_1_0_0_1_n_n.rhsIdx i r 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem as_lhs0 (i : S200x128.Idx) (r : dot_S200x10000_S10000x128_S200x128_1_0_0_1_n_n.contr.Idx) : (dot_S200x10000_S10000x128_S200x128_1_0_0_1_n_n.lhsIdx i r 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem as_lhs1 (i : S200x128.Idx) (r : dot_S200x10000_S10000x128_S200x128_1_0_0_1_n_n.contr.Idx) : (dot_S200x10000_S10000x128_S200x128_1_0_0_1_n_n.lhsIdx i r 1).val = (r ⟨0, by decide⟩).val :=
  dot_S200x10000_S10000x128_S200x128_1_0_0_1_n_n.lhsIdx_val_of_single rfl i r
theorem as_rhs0 (i : S200x128.Idx) (r : dot_S200x10000_S10000x128_S200x128_1_0_0_1_n_n.contr.Idx) : (dot_S200x10000_S10000x128_S200x128_1_0_0_1_n_n.rhsIdx i r 0).val = (r ⟨0, by decide⟩).val :=
  dot_S200x10000_S10000x128_S200x128_1_0_0_1_n_n.rhsIdx_val_of_single rfl i r
theorem as_rhs1 (i : S200x128.Idx) (r : dot_S200x10000_S10000x128_S200x128_1_0_0_1_n_n.contr.Idx) : (dot_S200x10000_S10000x128_S200x128_1_0_0_1_n_n.rhsIdx i r 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The features times the weights into a zero accumulator, at row `k` and column `q`. -/
theorem xw_apply (x : FVec Ideal S10000x128 .f32) (w : FVec Ideal S128x128 .f32) (k : Fin 10000) (q : Fin 128) :
    matmul dot_S10000x128_S128x128_S10000x128_1_0_0_1_n_n none x w (constant (F := Ideal) S10000x128 .f32 0x00000000#32) (ix2 k q)
      = ∑ j : Fin 128, x (ix2 k j) * w (ix2 j q) := by
  refine (Ideal.matmul_constant_zero_apply dot_S10000x128_S128x128_S10000x128_1_0_0_1_n_n none x w (ix2 k q)).trans ?_
  rw [← Equiv.sum_comp (contrEquiv1 dot_S10000x128_S128x128_S10000x128_1_0_0_1_n_n 128 rfl rfl).symm]
  refine Finset.sum_congr rfl fun j _ => ?_
  have hk := contrEquiv1_symm_val dot_S10000x128_S128x128_S10000x128_1_0_0_1_n_n 128 rfl rfl j
  have el : dot_S10000x128_S128x128_S10000x128_1_0_0_1_n_n.lhsIdx (ix2 k q) ((contrEquiv1 dot_S10000x128_S128x128_S10000x128_1_0_0_1_n_n 128 rfl rfl).symm j) = ix2 k j := funext fun a => Fin.ext (by
    match a with
    | ⟨0, _⟩ => exact xw_lhs0 _ _
    | ⟨1, _⟩ => exact (xw_lhs1 _ _).trans hk)
  have er : dot_S10000x128_S128x128_S10000x128_1_0_0_1_n_n.rhsIdx (ix2 k q) ((contrEquiv1 dot_S10000x128_S128x128_S10000x128_1_0_0_1_n_n 128 rfl rfl).symm j) = ix2 j q := funext fun a => Fin.ext (by
    match a with
    | ⟨0, _⟩ => exact (xw_rhs0 _ _).trans hk
    | ⟨1, _⟩ => exact xw_rhs1 _ _)
  rw [el, er]

/-- A 200-row slab of the adjacency matrix times a 10000 × 128 array into a zero accumulator, at row `p`, column `q`. -/
theorem as_apply (a : FVec Ideal S200x10000 .f32) (s : FVec Ideal S10000x128 .f32) (p : Fin 200) (q : Fin 128) :
    matmul dot_S200x10000_S10000x128_S200x128_1_0_0_1_n_n none a s (constant (F := Ideal) S200x128 .f32 0x00000000#32) (ix2 p q)
      = ∑ k : Fin 10000, a (ix2 p k) * s (ix2 k q) := by
  refine (Ideal.matmul_constant_zero_apply dot_S200x10000_S10000x128_S200x128_1_0_0_1_n_n none a s (ix2 p q)).trans ?_
  rw [← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p q) ((contrEquiv1 dot_S200x10000_S10000x128_S200x128_1_0_0_1_n_n 10000 rfl rfl).symm k) = ix2 p k := funext fun a => Fin.ext (by
    match a with
    | ⟨0, _⟩ => exact as_lhs0 _ _
    | ⟨1, _⟩ => exact (as_lhs1 _ _).trans hk)
  have er : dot_S200x10000_S10000x128_S200x128_1_0_0_1_n_n.rhsIdx (ix2 p q) ((contrEquiv1 dot_S200x10000_S10000x128_S200x128_1_0_0_1_n_n 10000 rfl rfl).symm k) = ix2 k q := funext fun a => Fin.ext (by
    match a with
    | ⟨0, _⟩ => exact (as_rhs0 _ _).trans hk
    | ⟨1, _⟩ => exact as_rhs1 _ _)
  rw [el, er]

/-- The stored product of the features and the weights is `support`. -/
theorem kept_apply (x : Vec Ideal S10000x128 .f32) (w : Vec Ideal S128x128 .f32) (k : Fin 10000) (q : Fin 128) :
    k0_pay1 (F := Ideal) x w (ix2 k q) = support x w k q := by
  unfold k0_pay1 support
  rw [shapeCast_self]
  exact xw_apply x w k q

/-- The bias row spread over 200 rows reads the row's entry in the same column. -/
theorem biasRows_apply (b : FVec Ideal S1x128 .f32) (p : Fin 200) (q : Fin 128) :
    broadcastTo S200x128 (shapeCast S1x128 b shapeCasts_S1x128_S1x128) broadcasts_S1x128_S200x128 (ix2 p q) = b (ix2 0 q) := by
  rw [shapeCast_self]
  exact broadcastTo_apply b broadcasts_S1x128_S200x128 (ix2 p q) (ix2 0 q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])

/-- The first stored half at row `p`, column `q`: the slab's row against `s`, plus the bias, clamped at zero. -/
theorem half_apply (a : Vec Ideal S200x10000 .f32) (s : Vec Ideal S10000x128 .f32) (b : Vec Ideal S1x128 .f32) (p : Fin 200) (q : Fin 128) :
    k0_pay2 (F := Ideal) a s b (ix2 p q) = rowAgainst (fun k => a (ix2 p k)) (fun k => s (ix2 k q)) (b (ix2 0 q)) := by
  unfold k0_pay2 rowAgainst
  rw [maximumf_apply, addf_apply, as_apply, biasRows_apply]
  rfl

/-- The second stored half is the same function of its operands. -/
theorem half'_apply (a : Vec Ideal S200x10000 .f32) (s : Vec Ideal S10000x128 .f32) (b : Vec Ideal S1x128 .f32) (p : Fin 200) (q : Fin 128) :
    k0_pay3 (F := Ideal) a s b (ix2 p q) = rowAgainst (fun k => a (ix2 p k)) (fun k => s (ix2 k q)) (b (ix2 0 q)) :=
  half_apply a s b p q

end Cert.KernelIdeal.Hand

end
-- ==== Proof.Ideal.Result.lean ====
/-
  The kernel computes the layer. Each window's block at a grid point, read at an index, is an entry of the array
  behind it: the features, the weights and the bias row whole; rows 400 t … 400 t + 199 of the adjacency matrix for
  the first stream and rows 400 t + 200 … 400 t + 399 for the second. So what point `t` writes back is rows
  400 t … 400 t + 399 of the layer's result, the 25 blocks tile the result array, and the array ends holding the layer
  of the argument arrays.
-/
import proofs.«138164_g14276471292070_cont_week2b_185_7_alg».proof.Proof.Ideal.Run
import proofs.«138164_g14276471292070_cont_week2b_185_7_alg».proof.Proof.Ideal.Pieces
import proofs.«138164_g14276471292070_cont_week2b_185_7_alg».proof.Proof.Ideal.Payloads
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.GraphLayer

/-! ## The windows' block indices over the grid -/

theorem index_facts : ∀ t : Fin cfg0.N,
    win0_0.index t (0 : Fin 2) = 0 ∧ win0_0.index t (1 : Fin 2) = 0
  ∧ win0_1.index t (0 : Fin 2) = 0 ∧ win0_1.index t (1 : Fin 2) = 0
  ∧ win0_2.index t (0 : Fin 2) = 0 ∧ win0_2.index t (1 : Fin 2) = 0
  ∧ win0_3.index t (0 : Fin 2) = 2 * t.val ∧ win0_3.index t (1 : Fin 2) = 0
  ∧ win0_4.index t (0 : Fin 2) = 2 * t.val + 1 ∧ win0_4.index t (1 : Fin 2) = 0
  ∧ win0_5.index t (0 : Fin 2) = t.val ∧ win0_5.index t (1 : Fin 2) = 0 :=
  (by decide +kernel : ∀ t : Fin grid0.N, _)

/-! ## Each block at an index -/

theorem features_apply (c : Dev nD) (t : Fin cfg0.N) (k : Fin 10000) (j : Fin 128) :
    (iblk m c 0 t : Vec Ideal S10000x128 .f32) (ix2 k j) = V m c main_arg0 (ix2 k j) := by
  obtain ⟨e0, e1, -⟩ := index_facts t
  show V m c main_arg0 (((cfg0.win 0).blk t).view.emb (ix2 k j)) = _
  refine congrArg (V m c main_arg0) (funext fun a => Fin.ext ?_)
  match a with
  | ⟨0, _⟩ => show win0_0.index t (0 : Fin 2) * 10000 + 1 * k.val = k.val; omega
  | ⟨1, _⟩ => show win0_0.index t (1 : Fin 2) * 128 + 1 * j.val = j.val; omega

theorem weights_apply (c : Dev nD) (t : Fin cfg0.N) (j : Fin 128) (q : Fin 128) :
    (iblk m c 1 t : Vec Ideal S128x128 .f32) (ix2 j q) = V m c main_arg2 (ix2 j q) := by
  obtain ⟨-, -, e0, e1, -⟩ := index_facts t
  show V m c main_arg2 (((cfg0.win 1).blk t).view.emb (ix2 j q)) = _
  refine congrArg (V m c main_arg2) (funext fun a => Fin.ext ?_)
  match a with
  | ⟨0, _⟩ => show win0_1.index t (0 : Fin 2) * 128 + 1 * j.val = j.val; omega
  | ⟨1, _⟩ => show win0_1.index t (1 : Fin 2) * 128 + 1 * q.val = q.val; omega

theorem biasRow_apply (c : Dev nD) (t : Fin cfg0.N) (q : Fin 128) :
    (iblk m c 2 t : Vec Ideal S1x128 .f32) (ix2 0 q) = V m c main_call0_v0 (ix2 0 q) := by
  obtain ⟨-, -, -, -, e0, e1, -⟩ := index_facts t
  show V m c main_call0_v0 (((cfg0.win 2).blk t).view.emb (ix2 0 q)) = _
  refine congrArg (V m c main_call0_v0) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

theorem firstStream_apply (c : Dev nD) (t : Fin cfg0.N) (p : Fin 200) (k : Fin 10000) (r : Fin 10000) (hr : r.val = 400 * t.val + p.val) :
    (iblk m c 3 t : Vec Ideal S200x10000 .f32) (ix2 p k) = V m c main_arg1 (ix2 r k) := by
  obtain ⟨-, -, -, -, -, -, e0, e1, -⟩ := index_facts t
  show V m c main_arg1 (((cfg0.win 3).blk t).view.emb (ix2 p k)) = _
  refine congrArg (V m c main_arg1) (funext fun a => Fin.ext ?_)
  match a with
  | ⟨0, _⟩ => show win0_3.index t (0 : Fin 2) * 200 + 1 * p.val = r.val; omega
  | ⟨1, _⟩ => show win0_3.index t (1 : Fin 2) * 10000 + 1 * k.val = k.val; omega

theorem secondStream_apply (c : Dev nD) (t : Fin cfg0.N) (p : Fin 200) (k : Fin 10000) (r : Fin 10000) (hr : r.val = 400 * t.val + 200 + p.val) :
    (iblk m c 4 t : Vec Ideal S200x10000 .f32) (ix2 p k) = V m c main_arg1 (ix2 r k) := by
  obtain ⟨-, -, -, -, -, -, -, -, e0, e1, -⟩ := index_facts t
  show V m c main_arg1 (((cfg0.win 4).blk t).view.emb (ix2 p k)) = _
  refine congrArg (V m c main_arg1) (funext fun a => Fin.ext ?_)
  match a with
  | ⟨0, _⟩ => show win0_4.index t (0 : Fin 2) * 200 + 1 * p.val = r.val; omega
  | ⟨1, _⟩ => show win0_4.index t (1 : Fin 2) * 10000 + 1 * k.val = k.val; omega

/-- The row the host operation makes of the bias reads the bias. -/
theorem bias_apply (c : Dev nD) (q : Fin 128) :
    V m c main_call0_v0 (ix2 0 q) = m ((c : Thread nD τ).loc main_arg3) (ix1 q) := by
  have e : (V m c main_call0_v0 : S1x128.Idx → EReal)
      = shapeCast S1x128 (m ((c : Thread nD τ).loc main_arg3)) shapeCasts_S128_S1x128 := by
    dsimp only [V, hostOps0]; after_results; rfl
  rw [e]
  refine (shapeCast_addUnit_apply ![128] _ shapeCasts_S128_S1x128 (ix2 0 q)).trans ?_
  exact congrArg _ (funext fun a => by match a with | ⟨0, _⟩ => rfl)

/-! ## What a point writes back -/

/-- The two stored halves against any 10000 × 128 array `s`: row `p` of the block is the matching stream's row. -/
theorem halves_rows (a3 a4 : Vec Ideal S200x10000 .f32) (s : Vec Ideal S10000x128 .f32) (b : Vec Ideal S1x128 .f32)
    (p : Fin 400) (q : Fin 128) :
    View.canon (halves (k0_pay2 (F := Ideal) a3 s b) (k0_pay3 (F := Ideal) a4 s b)) (ix2 p q)
      = rowAgainst (fun k => if h : p.val < 200 then a3 (ix2 ⟨p.val, h⟩ k) else a4 (ix2 ⟨p.val - 200, by omega⟩ k))
          (fun k => s (ix2 k q)) (b (ix2 0 q)) := by
  rw [halves_apply]
  by_cases h : p.val < 200
  · simp only [dif_pos h]; exact half_apply a3 s b ⟨p.val, h⟩ q
  · simp only [dif_neg h]; exact half'_apply a4 s b ⟨p.val - 200, by omega⟩ q

/-- The scratch buffer's product, entry by entry, is `support` of the features and the weights as launched. -/
theorem product_apply (c : Dev nD) (t : Fin cfg0.N) (k : Fin 10000) (q : Fin 128) :
    k0_pay1 (F := Ideal) (iblk m c 0 t) (iblk m c 1 t) (ix2 k q) = support (V m c main_arg0) (V m c main_arg2) k q := by
  rw [kept_apply]
  unfold support
  exact Finset.sum_congr rfl fun j _ => by rw [features_apply, weights_apply]

/-- Row `p` of the block written back at point `t` is row `400 t + p` of the layer. -/
theorem out_apply (c : Dev nD) (t : Fin cfg0.N) (p : Fin 400) (q : Fin 128) (r : Fin 10000) (hr : r.val = 400 * t.val + p.val) :
    outAt m c t (ix2 p q)
      = layerAt (V m c main_arg0) (V m c main_arg1) (V m c main_arg2) (m ((c : Thread nD τ).loc main_arg3)) r q := by
  have hrows : ∀ k : Fin 10000, (if h : p.val < 200 then (iblk m c 3 t : Vec Ideal S200x10000 .f32) (ix2 ⟨p.val, h⟩ k)
      else (iblk m c 4 t : Vec Ideal S200x10000 .f32) (ix2 ⟨p.val - 200, by omega⟩ k)) = V m c main_arg1 (ix2 r k) := fun k => by
    by_cases h : p.val < 200
    · rw [dif_pos h]; exact firstStream_apply m c t ⟨p.val, h⟩ k r hr
    · rw [dif_neg h]; exact secondStream_apply m c t ⟨p.val - 200, by omega⟩ k r (by show r.val = 400 * t.val + 200 + (p.val - 200); omega)
  have hbias : (iblk m c 2 t : Vec Ideal S1x128 .f32) (ix2 0 q) = m ((c : Thread nD τ).loc main_arg3) (ix1 q) :=
    (biasRow_apply m c t q).trans (bias_apply m c q)
  unfold layerAt
  by_cases h0 : t.val = 0
  · rw [outAt_first m c t h0, outFirst_eq, halves_rows]
    simp only [hrows, hbias, product_apply]
  · rw [outAt_later m c t h0, outLater_eq, halves_rows]
    unfold kept
    rw [keptFirst_eq]
    simp only [hrows, hbias, product_apply]

/-- WHAT POINT `t` WRITES BACK is block `t` of the layer of the arrays as the region finds them. -/
theorem flushed_eq (c : Dev nD) (t : Fin cfg0.N) :
    (dats m 0 c).flushed 5 t = ((cfg0.win 5).blk t).view.read (Elt Ideal)
      (layer (V m c main_arg0) (V m c main_arg1) (V m c main_arg2) (m ((c : Thread nD τ).loc main_arg3))) := by
  show (cfg0.win 5).cut (grid0.coords t) ((dats m 0 c).after 5 t) = _
  rw [after5]
  obtain ⟨-, -, -, -, -, -, -, -, -, -, e0, e1⟩ := index_facts t
  have hN : t.val < 25 := lt_of_lt_of_eq t.isLt N_0
  funext j
  have hj0 : (j 0).val < 400 := (j 0).isLt
  have hj1 : (j 1).val < 128 := (j 1).isLt
  show outAt m c t j = layer (V m c main_arg0) (V m c main_arg1) (V m c main_arg2) (m ((c : Thread nD τ).loc main_arg3))
    (((cfg0.win 5).blk t).view.emb j)
  have ej : (j : S400x128.Idx) = ix2 ⟨(j 0).val, hj0⟩ ⟨(j 1).val, hj1⟩ :=
    funext fun a => by match a with | ⟨0, _⟩ => rfl | ⟨1, _⟩ => rfl
  have ee : ((cfg0.win 5).blk t).view.emb j = ix2 (⟨400 * t.val + (j 0).val, by omega⟩ : Fin 10000) (⟨(j 1).val, hj1⟩ : Fin 128) :=
    funext fun a => Fin.ext (by
      match a with
      | ⟨0, _⟩ => show win0_5.index t (0 : Fin 2) * 400 + 1 * (j 0).val = 400 * t.val + (j 0).val; omega
      | ⟨1, _⟩ => show win0_5.index t (1 : Fin 2) * 128 + 1 * (j 1).val = (j 1).val; omega)
  refine (congrArg (outAt m c t) ej).trans ?_
  refine (out_apply m c t ⟨(j 0).val, hj0⟩ ⟨(j 1).val, hj1⟩ ⟨400 * t.val + (j 0).val, by omega⟩ rfl).trans ?_
  exact (congrArg (layer (V m c main_arg0) (V m c main_arg1) (V m c main_arg2) (m ((c : Thread nD τ).loc main_arg3))) ee).symm

/-! ## The blocks tile the result array -/

theorem mem_blk (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v0).slice (win0_5.rect t)).set ↔ _
  rw [View.set_slice_whole, Rect.mem_set_unit]
  exact Iff.rfl

theorem covered (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := N_0
  refine ⟨⟨(i 0).val / 400, by rw [hN]; omega⟩, flush0_5 _, ?_⟩
  rw [mem_blk]
  obtain ⟨-, -, -, -, -, -, -, -, -, -, e0, e1⟩ := index_facts ⟨(i 0).val / 400, by rw [hN]; omega⟩
  intro a
  match a with
  | ⟨0, _⟩ =>
    show win0_5.index _ (0 : Fin 2) * 400 ≤ (i 0).val ∧ (i 0).val < win0_5.index _ (0 : Fin 2) * 400 + 400
    rw [e0]; show (i 0).val / 400 * 400 ≤ (i 0).val ∧ (i 0).val < (i 0).val / 400 * 400 + 400; omega
  | ⟨1, _⟩ =>
    show win0_5.index _ (1 : Fin 2) * 128 ≤ (i 1).val ∧ (i 1).val < win0_5.index _ (1 : Fin 2) * 128 + 128
    rw [e1]; omega

/-- THE RESULT ARRAY after the run is the layer of the arrays as the region finds them. -/
theorem final (c : Dev nD) : (dats m 0 c).arrAt 5 cfg0.N
    = layer (V m c main_arg0) (V m c main_arg1) (V m c main_arg2) (m ((c : Thread nD τ).loc main_arg3)) :=
  (dats m 0 c).arrAt_eq_of_cover 5 _ (fun t _ => flushed_eq m c t) covered

/-- The run, read: the result array is the layer of the argument arrays as launched, and they end unchanged. -/
theorem run : θ_run defs (onTc (τ := τ) (main (F := Ideal))) ⟨m, fun _ => 0, ρ⟩ (fun r => ∀ c : Dev nD,
      r.2.mem ((c.tc : Thread nD τ).loc main_v0)
        = layer (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 5).trans ((final m c).trans (by rw [V_main_arg0, V_main_arg1, V_main_arg2])),
     ((h c).1 0).trans (((dats m 0 c).arrAt_in 0 rfl _).trans ((A_eq m c 0).trans (V_main_arg0 m c))),
     ((h c).1 3).trans (((dats m 0 c).arrAt_in 3 rfl _).trans ((A_eq m c 3).trans (V_main_arg1 m c))),
     ((h c).1 1).trans (((dats m 0 c).arrAt_in 1 rfl _).trans ((A_eq m c 1).trans (V_main_arg2 m c))),
     ((h c).2 main_arg3 (Pipeline.mem_restRefs_of main_arg3 (by decide) (by decide))).trans (V_main_arg3 m c)⟩) (run_main m ρ)

end Cert.KernelIdeal.Hand

end
-- ==== Proof.ReferenceLayer.lean ====
/-
  The reference computes the layer: its eight host operations, read one at a time at an index, are the two sums, the
  bias and the clamp of `Cert.GraphLayer.layer`.
-/
import proofs.«138164_g14276471292070_cont_week2b_185_7_alg».proof.Proof.Gen.ReferenceIdeal.Read
import proofs.«138164_g14276471292070_cont_week2b_185_7_alg».proof.Proof.GraphLayer

noncomputable section

open scoped BigOperators

namespace Cert.ReferenceIdeal.Layer

open Cert.ReferenceIdeal Cert.ReferenceIdeal.Gen Cert.ReferenceIdeal.Read Idealize.ShloMosaic Idealize.ShloMosaic.ValueIdx Cert.GraphLayer

/-- The reference's result, as a function of the four argument arrays, is the layer. -/
theorem result_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    val_main_v5 (F := Ideal) x0 x1 x2 x3 = layer x0 x1 x2 x3 := by
  funext i
  obtain ⟨p, q, rfl⟩ : ∃ (p : Fin 10000) (q : Fin 128), i = ix2 p q := ⟨i 0, i 1, eq_ix2 i⟩
  rw [layer_ix2, val_main_v5_apply, val_main_v4_apply, val_main_v1_apply, val_main_v3_apply, val_main_v2_apply,
    val_main_call0_v0_apply, val_main_call0_cst_apply]
  simp only [val_main_v0_apply]
  have e1 : ∀ k : Fin 10000, lidx_main_v1 (ix2 p q) k = ix2 p k := fun k =>
    funext fun a => Fin.ext (by match a with | ⟨0, _⟩ => rfl | ⟨1, _⟩ => rfl)
  have e2 : ∀ (k : Fin 10000) (j : Fin 128), lidx_main_v0 (ridx_main_v1 (ix2 p q) k) j = ix2 k j := fun k j =>
    funext fun a => Fin.ext (by match a with | ⟨0, _⟩ => rfl | ⟨1, _⟩ => rfl)
  have e3 : ∀ (k : Fin 10000) (j : Fin 128), ridx_main_v0 (ridx_main_v1 (ix2 p q) k) j = ix2 j q := fun k j =>
    funext fun a => Fin.ext (by match a with | ⟨0, _⟩ => rfl | ⟨1, _⟩ => rfl)
  have e4 : idx_main_v2 (idx_main_v3 (ix2 p q)) = ix1 q :=
    funext fun a => Fin.ext (by match a with | ⟨0, _⟩ => rfl)
  simp only [e1, e2, e3, e4]
  rfl

end Cert.ReferenceIdeal.Layer

end
-- ==== Proof.lean ====
/-
  Both programs compute one graph-convolution layer, relu(adj · (x · W) + b), of the four argument arrays.

  The kernel visits 25 grid points. At the first it forms the product x · W once and keeps it in a scratch buffer; at
  every point it takes two 200-row slabs of the adjacency matrix — rows 400 t … 400 t + 199 and 400 t + 200 … 400 t + 399,
  read through two windows on the one matrix, each holding half of its share —, multiplies each against the kept product,
  adds the bias row, clamps below at zero and writes the 400 rows back. The 25 blocks tile the result.
  The reference does the same with two whole matrix products on the host.

  On the extended reals the two are the same function entry by entry (`Cert.GraphLayer.layer`): a matrix product into a
  zero accumulator is the plain sum, the association adj · (x · W) is the same on both sides, and the clamp is against the
  same zero word. No distributive or cancelling law is used, so the finiteness of the inputs is never opened.

  The three frames: the kernel's (at the word-level and at the ideal instance, one text for both) from the run of the
  region; the reference's from its run. The idealization rewrote nothing, so `preserves` is trivial.
-/
import proofs.«138164_g14276471292070_cont_week2b_185_7_alg».proof.Defs
import proofs.«138164_g14276471292070_cont_week2b_185_7_alg».proof.Proof.Gen.Kernel
import proofs.«138164_g14276471292070_cont_week2b_185_7_alg».proof.Proof.Gen.KernelIdeal
import proofs.«138164_g14276471292070_cont_week2b_185_7_alg».proof.Proof.Gen.ReferenceIdeal
import proofs.«138164_g14276471292070_cont_week2b_185_7_alg».proof.Proof.Gen.Pre_finite_inputs
import proofs.«138164_g14276471292070_cont_week2b_185_7_alg».proof.Proof.Gen.ReferenceIdeal.Run
import proofs.«138164_g14276471292070_cont_week2b_185_7_alg».proof.Proof.Gen.ReferenceIdeal.Read
import proofs.«138164_g14276471292070_cont_week2b_185_7_alg».proof.Proof.Bits.Run
import proofs.«138164_g14276471292070_cont_week2b_185_7_alg».proof.Proof.Ideal.Result
import proofs.«138164_g14276471292070_cont_week2b_185_7_alg».proof.Proof.ReferenceLayer

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the four arguments both programs end with the layer of those arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Layer.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
